-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) (main_arg1 : FVec F S1048576x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  main_v8
-- ==== Kernel.lean ====
abbrev S1048576x128 : Shape := ⟨2, ![1048576, 128]⟩
abbrev S16x128 : Shape := ⟨2, ![16, 128]⟩
abbrev S16384x128 : Shape := ⟨2, ![16384, 128]⟩
abbrev S8x128 : Shape := ⟨2, ![8, 128]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_mult1 : BitVec 32 :=
  let c0_i32_1 : BitVec 32 := 0#32
  let c2048_i32 : BitVec 32 := 2048#32
  let v4 : BitVec 32 := Scalar.muli c0_i32_1 c2048_i32
  v4
def k0_off1 (c0_i32_1 : BitVec 32) : Fin 2 → Nat :=
  let c2048_i32 : BitVec 32 := 2048#32
  let v4 : BitVec 32 := Scalar.muli c0_i32_1 c2048_i32
  let v5 : BitVec 32 := v4
  let v6 : Index := Scalar.indexCast v5
  let c0 : Index := 0#32
  ![v6.toNat, 0]
def k0_mult2 : BitVec 32 :=
  let c1_i32 : BitVec 32 := 1#32
  let c2048_i32_9 : BitVec 32 := 2048#32
  let v30 : BitVec 32 := Scalar.muli c1_i32 c2048_i32_9
  v30
def k0_mult3 : BitVec 32 :=
  let c2_i32 : BitVec 32 := 2#32
  let c2048_i32_18 : BitVec 32 := 2048#32
  let v56 : BitVec 32 := Scalar.muli c2_i32 c2048_i32_18
  v56
def k0_mult4 : BitVec 32 :=
  let c3_i32 : BitVec 32 := 3#32
  let c2048_i32_27 : BitVec 32 := 2048#32
  let v82 : BitVec 32 := Scalar.muli c3_i32 c2048_i32_27
  v82
def k0_mult5 : BitVec 32 :=
  let c4_i32 : BitVec 32 := 4#32
  let c2048_i32_36 : BitVec 32 := 2048#32
  let v108 : BitVec 32 := Scalar.muli c4_i32 c2048_i32_36
  v108
def k0_mult6 : BitVec 32 :=
  let c5_i32 : BitVec 32 := 5#32
  let c2048_i32_45 : BitVec 32 := 2048#32
  let v134 : BitVec 32 := Scalar.muli c5_i32 c2048_i32_45
  v134
def k0_mult7 : BitVec 32 :=
  let c6_i32 : BitVec 32 := 6#32
  let c2048_i32_54 : BitVec 32 := 2048#32
  let v160 : BitVec 32 := Scalar.muli c6_i32 c2048_i32_54
  v160
def k0_mult8 : BitVec 32 :=
  let c7_i32 : BitVec 32 := 7#32
  let c2048_i32_63 : BitVec 32 := 2048#32
  let v186 : BitVec 32 := Scalar.muli c7_i32 c2048_i32_63
  v186
def k0_cond2 (i : grid0.Coords) : BitVec 1 :=
  let arg1 : BitVec 32 := BitVec.ofNat 32 (i 1).val
  let c31_i32 : BitVec 32 := 31#32
  let v217 : BitVec 1 := Scalar.cmpi .eq arg1 c31_i32
  let v218 : BitVec 32 := Scalar.extui v217
  let c0_i32_76 : BitVec 32 := 0#32
  let v219 : BitVec 1 := Scalar.cmpi .ne v218 c0_i32_76
  v219

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S2048x128 : 0 < S2048x128.numel
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  k0_mult1_dvd : 2048 ∣ k0_mult1.toNat
  k0_off1_inb : ∀ (r : Fin 8), ∀ a, (k0_off1 (BitVec.ofNat 32 r.val)) a + S2048x128.size a ≤ S16384x128.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1048576x128.size a
  hwx0_0 : ∀ i : grid0.Coords, EltTy.bits .f32 = 32 ∨ (Rect.block (s := S1048576x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S1048576x128.size a
  hwx0_1 : ∀ i : grid0.Coords, EltTy.bits .f32 = 32 ∨ (Rect.block (s := S1048576x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x128 : Shape := ⟨2, ![1048576, 128]⟩
abbrev S_ : Shape := ⟨0, ![]⟩
abbrev S1048576 : Shape := ⟨1, ![1048576]⟩
abbrev S1048576x1 : Shape := ⟨2, ![1048576, 1]⟩

abbrev nBuf : Space → Nat
  | .hbm => 29
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576x128, .f32⟩
  | .hbm, ⟨3, _⟩ => ⟨S_, .f32⟩
  | .hbm, ⟨4, _⟩ => ⟨S1048576, .f32⟩
  | .hbm, ⟨5, _⟩ => ⟨S1048576x1, .f32⟩
  | .hbm, ⟨6, _⟩ => ⟨S1048576x1, .f32⟩
  | .hbm, ⟨7, _⟩ => ⟨S_, .f32⟩
  | .hbm, ⟨8, _⟩ => ⟨S1048576x1, .f32⟩
  | .hbm, ⟨9, _⟩ => ⟨S1048576x1, .f32⟩
  | .hbm, ⟨10, _⟩ => ⟨S1048576x128, .f32⟩
  | .hbm, ⟨11, _⟩ => ⟨S_, .f32⟩
  | .hbm, ⟨12, _⟩ => ⟨S1048576, .f32⟩
  | .hbm, ⟨13, _⟩ => ⟨S1048576x1, .f32⟩
  | .hbm, ⟨14, _⟩ => ⟨S1048576x1, .f32⟩
  | .hbm, ⟨15, _⟩ => ⟨S_, .f32⟩
  | .hbm, ⟨16, _⟩ => ⟨S1048576x1, .f32⟩
  | .hbm, ⟨17, _⟩ => ⟨S1048576x1, .f32⟩
  | .hbm, ⟨18, _⟩ => ⟨S1048576x128, .f32⟩
  | .hbm, ⟨19, _⟩ => ⟨S1048576x128, .f32⟩
  | .hbm, ⟨20, _⟩ => ⟨S1048576x128, .f32⟩
  | .hbm, ⟨21, _⟩ => ⟨S1048576x128, .f32⟩
  | .hbm, ⟨22, _⟩ => ⟨S1048576x128, .f32⟩
  | .hbm, ⟨23, _⟩ => ⟨S_, .f32⟩
  | .hbm, ⟨24, _⟩ => ⟨S1048576, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x128_0_1 : S1048576x1.BroadcastsInDim S1048576x128 (![0, 1] : Fin 2 → Fin S1048576x128.rank)
  reducesTo_S1048576_S_d0 : S1048576.ReducesTo [0] S_

variable [Facts₀]

class Facts : Prop extends Facts₀ where

variable [Facts]
-- ==== Proof.Chunk.lean ====
/-
  One piece of 2048 pairs of rows, as the blocked program computes it: each row's three sums of products along the 128
  columns, the two norms clamped, the quotient, and the sum of the 2048 quotients — a 1×1 vector.
-/
import proofs.«104898_j74002286510639_2_alg».proof.Proof.Gen.KernelIdeal

noncomputable section

namespace Cert.KernelIdeal.Chunk

open Idealize.ShloMosaic Cert.KernelIdeal Cert.KernelIdeal.Gen

variable {F : FTy → Type} [FloatOps F]

/-- Each row's sum along the 128 columns, kept as a column of 2048 numbers. -/
def rowSums (v : FVec F S2048x128 .f32) : FVec F S2048x1 .f32 :=
  shapeCast S2048x1 (multiReduction .add [1] S2048 v 0x00000000#32 reduces_S2048x128_S2048 (.inl rfl) rfl) shapeCasts_S2048_S2048x1

/-- The clamp, repeated down a column. -/
def clampCol : FVec F S2048x1 .f32 := broadcast S2048x1 (Scalar.ofBits .f32 0x2B8CBCCC#32)

/-- A row's Euclidean norm from its sum of squares, clamped from below; one per row, as a column. -/
def normCol (sq : FVec F S2048x1 .f32) : FVec F S2048x1 .f32 := maximumf (sqrt sq) clampCol

/-- The sum of the 2048 quotients of a column of products by two columns of clamped norms. -/
def quotSum (pr na nb : FVec F S2048x1 .f32) : FVec F S1x1 .f32 :=
  shapeCast S1x1 (multiReduction .add [0] S1 (divf pr (mulf na nb)) 0x00000000#32 reduces_S2048x1_S1 (.inl rfl) rfl) shapeCasts_S1_S1x1

/-- The sum of the cosines of the 2048 pairs of rows of two pieces. -/
def chunkCos (a b : Vec F S2048x128 .f32) : FVec F S1x1 .f32 :=
  quotSum (rowSums (mulf a b)) (normCol (rowSums (mulf a a))) (normCol (rowSums (mulf b b)))

end Cert.KernelIdeal.Chunk

end
-- ==== Proof.Pieces.lean ====
/-
  What one grid point does to the carried 1×1 sum and to the output block, for any float instance: a block of 16384 pairs
  of rows is taken in eight pieces of 2048, each piece gives the sum of its rows' cosines, the eight sums are added up
  from zero, and the total is added to what the sum held before (zero at the first block of a half). At the last block
  of a half the output block receives the sum at its first entry and zero elsewhere.
-/
import proofs.«104898_j74002286510639_2_alg».proof.Proof.Gen.KernelIdeal.Frame
import proofs.«104898_j74002286510639_2_alg».proof.Proof.Chunk
import Idealize.ShloMosaic.Lib.Pipeline.Value

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Chunk

variable {F : FTy → Type} [FloatOps F]

/-- The zero offsets of a whole 1×1 or 8×128 rectangle. -/
theorem off_zero : (![0, 0] : Fin 2 → Nat) = fun _ => 0 := by funext a; fin_cases a <;> rfl

/-- A piece of 2048 rows starting at row `o` lies inside a block of 16384 rows. -/
theorem piece_inb (o : Nat) (ho : o + 2048 ≤ 16384) :
    ∀ a, (![o, 0] : Fin 2 → Nat) a + (![2048, 128] : Fin 2 → Nat) a ≤ S16384x128.size a := by
  intro a; fin_cases a
  · show o + 2048 ≤ 16384; exact ho
  · show 0 + 128 ≤ 128; omega

/-- The piece of 2048 rows of a block that starts at row `o`. -/
def pieceAt (x : Vec F S16384x128 .f32) (o : Nat) (ho : o + 2048 ≤ 16384) : Vec F S2048x128 .f32 :=
  View.ld x (Rect.unit ![o, 0] ![2048, 128] (piece_inb o ho))

/-- The 1×1 zero the eight sums are added to. -/
def zero11 : FVec F S1x1 .f32 := broadcast S1x1 (Scalar.ofBits .f32 0x00000000#32)

/-- Eight 1×1 numbers added up from zero, first to last. -/
def addUp (s0 s1 s2 s3 s4 s5 s6 s7 : FVec F S1x1 .f32) : FVec F S1x1 .f32 :=
  addf (addf (addf (addf (addf (addf (addf (addf zero11 s0) s1) s2) s3) s4) s5) s6) s7

/-- The positional cuts of the body compute, of sixteen pieces, the eight pieces' sums of cosines added up from zero:
    each cut is a chain of the same operations, so the two sides unfold to one term. -/
theorem pays_eq (a0 b0 a1 b1 a2 b2 a3 b3 a4 b4 a5 b5 a6 b6 a7 b7 : Vec F S2048x128 .f32) :
    k0_pay13 (k0_pay11 (k0_pay7 (k0_pay6 (k0_pay4 a0 b0) a1 b1 (k0_pay5 a1) a2 b2) a3 b3)
        (k0_pay8 b4) (k0_pay9 a4 b4) (k0_pay10 a4) a5 b5) a6 b6 (k0_pay12 a6) a7 b7
      = addUp (chunkCos a0 b0) (chunkCos a1 b1) (chunkCos a2 b2) (chunkCos a3 b3)
          (chunkCos a4 b4) (chunkCos a5 b5) (chunkCos a6 b6) (chunkCos a7 b7) := rfl

/-- What one block of 16384 pairs of rows adds to the carried sum. -/
def blockPartial (x0 x1 : Vec F S16384x128 .f32) : FVec F S1x1 .f32 :=
  addUp (chunkCos (pieceAt x0 0 (by omega)) (pieceAt x1 0 (by omega)))
    (chunkCos (pieceAt x0 2048 (by omega)) (pieceAt x1 2048 (by omega)))
    (chunkCos (pieceAt x0 4096 (by omega)) (pieceAt x1 4096 (by omega)))
    (chunkCos (pieceAt x0 6144 (by omega)) (pieceAt x1 6144 (by omega)))
    (chunkCos (pieceAt x0 8192 (by omega)) (pieceAt x1 8192 (by omega)))
    (chunkCos (pieceAt x0 10240 (by omega)) (pieceAt x1 10240 (by omega)))
    (chunkCos (pieceAt x0 12288 (by omega)) (pieceAt x1 12288 (by omega)))
    (chunkCos (pieceAt x0 14336 (by omega)) (pieceAt x1 14336 (by omega)))

/-- The carried sum after a block: what it held plus the block's sum (the recast to the same shape changes nothing). -/
theorem pay1_eq (p : FVec F S1x1 .f32) (xs : Vec F S1x1 .f32) : k0_pay1 p xs = addf xs p := by
  unfold k0_pay1; exact shapeCast_self _ _

/-- The value the carried sum is reset to at the first block of a half: zero. -/
theorem pay3_eq : (k0_pay3 : FVec F S1x1 .f32) = zero11 := by
  unfold k0_pay3 zero11; exact shapeCast_self _ _

/-- At the first block of a half the carried sum ends at zero plus the block's sum. -/
theorem sout_A (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S8x128 .f32) (harg4 : arg4.IsWhole) (arg5 : Memref sig .tc .vmem S1x1 .f32) (harg5 : arg5.IsWhole) (hc0 : cond0_0 i) (hc1 : ¬cond0_1 i)
    (x0 : Vec F S16384x128 .f32) (x1 : Vec F S16384x128 .f32) :
    sout0_A_0 c i arg2 harg2 arg3 harg3 arg4 harg4 arg5 harg5 hc0 hc1 x0 x1 = addf zero11 (blockPartial x0 x1) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero off_zero]
  simp only [View.readAt_eq_ld, harg5.read_unread, harg2.read_unread, harg3.read_unread]
  rw [View.readCov_unit_zero _ off_zero, pays_eq, pay1_eq, pay3_eq]
  rfl

/-- At a block in the middle of a half the carried sum ends at what it held plus the block's sum. -/
theorem sout_B (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : ¬cond0_1 i)
    (x0 : Vec F S16384x128 .f32) (x1 : Vec F S16384x128 .f32) (xs0 : Vec F S1x1 .f32) :
    sout0_B_0 c i arg2 harg2 arg3 harg3 arg4 harg4 arg5 harg5 hc0 hc1 x0 x1 xs0 = addf xs0 (blockPartial x0 x1) := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero off_zero]
  simp only [View.readAt_eq_ld, harg5.read_unread, harg2.read_unread, harg3.read_unread, View.ld_unit_zero (S := S1x1) off_zero]
  rw [pays_eq, pay1_eq]
  rfl

/-- At the last block of a half the carried sum ends at what it held plus the block's sum. -/
theorem sout_C (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i)
    (x0 : Vec F S16384x128 .f32) (x1 : Vec F S16384x128 .f32) (xs0 : Vec F S1x1 .f32) :
    sout0_C_0 c i arg2 harg2 arg3 harg3 arg4 harg4 arg5 harg5 hc0 hc1 x0 x1 xs0 = addf xs0 (blockPartial x0 x1) := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero off_zero]
  simp only [View.readAt_eq_ld, harg5.read_unread, harg2.read_unread, harg3.read_unread, View.ld_unit_zero (S := S1x1) off_zero]
  rw [pays_eq, pay1_eq]
  rfl

/-- There the output block receives the last store's value of the carried sum just written. -/
theorem out_C (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i)
    (x0 : Vec F S16384x128 .f32) (x1 : Vec F S16384x128 .f32) (xs0 : Vec F S1x1 .f32) :
    out0_C_2 c i arg2 harg2 arg3 harg3 arg4 harg4 arg5 harg5 hc0 hc1 x0 x1 xs0 = k0_pay2 (addf xs0 (blockPartial x0 x1)) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero off_zero]
  simp only [View.readAt_eq_ld, harg5.read_unread, harg2.read_unread, harg3.read_unread, View.ld_unit_zero (S := S1x1) off_zero]
  rw [View.readCov_unit_zero _ off_zero, pays_eq, pay1_eq]
  rfl

end Cert.KernelIdeal.Bridge

end
-- ==== Proof.BlockRead.lean ====
/-
  Where the windows' blocks sit: at grid point `t` (0 … 63) each input window's block is rows 16384·t … 16384·t + 16383
  of its array, the output window's block is rows 8·(t / 32) … of the 16×128 array, and the output is written back
  exactly at the last point of each half of 32 points.
-/
import proofs.«104898_j74002286510639_2_alg».proof.Proof.Gen.KernelIdeal.Frame
import Idealize.ShloMosaic.Lib.ValueIdx
import Idealize.ShloMosaic.Lib.Pipeline.Value

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.ValueIdx

variable {F : FTy → Type} [FloatOps F]
variable (m : (ℓ : Loc nD τ sig) → Buf (Elt F) ℓ)

/-- The printed index maps and the write-back table, decided over the grid's 64 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 32 ∧ win0_2.index t (1 : Fin 2) = 0
    ∧ ((cfg0.win 2).flush t = true ↔ t.val % 32 = 31) :=
  (by decide +kernel : ∀ t : Fin grid0.N, _)

/-- Row `r` of the first input's block at point `t` is row 16384·t + r of the first array. -/
theorem iblk0_apply (c : Dev nD) (t : Fin cfg0.N) (r : Fin 16384) (d : Fin 128) :
    iblk m c 0 t (ix2 r d) = V m c main_arg0 (ix2 (⟨t.val * 16384 + r.val, by have := t.isLt; have hN : cfg0.N = 64 := N_0; have := r.isLt; omega⟩ : Fin 1048576) d) := by
  obtain ⟨e0, e1, -⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 16384 + 1 * r.val = t.val * 16384 + r.val; omega
  | ⟨1, _⟩ => show win0_0.index t (1 : Fin 2) * 128 + 1 * d.val = d.val; omega

/-- Row `r` of the second input's block at point `t` is row 16384·t + r of the second array. -/
theorem iblk1_apply (c : Dev nD) (t : Fin cfg0.N) (r : Fin 16384) (d : Fin 128) :
    iblk m c 1 t (ix2 r d) = V m c main_arg1 (ix2 (⟨t.val * 16384 + r.val, by have := t.isLt; have hN : cfg0.N = 64 := N_0; have := r.isLt; omega⟩ : Fin 1048576) d) := by
  obtain ⟨-, -, e0, e1, -⟩ := idx_facts t
  show V m c main_arg1 (((cfg0.win 1).blk t).view.emb (ix2 r d)) = _
  refine congrArg (V m c main_arg1) (funext fun a => Fin.ext ?_)
  match a with
  | ⟨0, _⟩ => show win0_1.index t (0 : Fin 2) * 16384 + 1 * r.val = t.val * 16384 + r.val; omega
  | ⟨1, _⟩ => show win0_1.index t (1 : Fin 2) * 128 + 1 * d.val = d.val; omega

end Cert.KernelIdeal.Bridge

end
-- ==== Proof.Spec.lean ====
/-
  The quantity both programs compute: the mean, over the 1,048,576 pairs of rows of two arrays of 128 columns, of the
  cosine of each pair of rows — the sum of the products of the two rows over the product of their Euclidean norms,
  each norm clamped from below by a small positive number. Written on the extended reals, row by row.
-/
import Idealize.ShloMosaic.PureOps.Ideal
import Idealize.ShloMosaic.Lib.ValueIdx

noncomputable section

open scoped BigOperators

namespace Cert.MeanCos

open Idealize.ShloMosaic Idealize.ShloMosaic.ValueIdx

/-- The clamp under each norm: the single-precision number nearest 10⁻¹². -/
def clampE : EReal := Ideal.ofBits .f32 0x2B8CBCCC#32
/-- The number of rows, 2²⁰, as the number both programs divide by. -/
def rowsE : EReal := Ideal.ofBits .f32 0x49800000#32

/-- The sum of the products of two rows. -/
def dot (a b : Fin 128 → EReal) : EReal := ∑ d : Fin 128, a d * b d
/-- The Euclidean norm of a row, clamped from below. -/
def cnorm (a : Fin 128 → EReal) : EReal := max (Ideal.sqrt (dot a a)) clampE
/-- The cosine of two rows: the sum of products over the product of the clamped norms. -/
def cosK (a b : Fin 128 → EReal) : EReal := Ideal.div (dot a b) (cnorm a * cnorm b)
/-- The same with each row divided by its clamped norm before the products are summed. -/
def cosR (a b : Fin 128 → EReal) : EReal := ∑ d : Fin 128, Ideal.div (a d) (cnorm a) * Ideal.div (b d) (cnorm b)

/-- An array of 1,048,576 rows of 128 numbers. -/
abbrev Arr : Type := (⟨2, ![1048576, 128]⟩ : Shape).Idx → EReal
/-- Row `n` of an array. -/
def row (x : Arr) (n : Fin 1048576) : Fin 128 → EReal := fun d => x (ix2 n d)

/-- The mean of the rows' cosines. -/
def meanCos (x y : Arr) : EReal := Ideal.div (∑ n : Fin 1048576, cosK (row x n) (row y n)) rowsE

/-- The rows in the order the blocked program visits them: 64 blocks of 16384 rows, each block in 8 pieces of 2048
    rows; this is the number of row `r` of piece `j` of block `t`. -/
def rowAt (t : Fin 64) (j : Fin 8) (r : Fin 2048) : Fin 1048576 :=
  ⟨(t.val * 8 + j.val) * 2048 + r.val, by have := t.isLt; have := j.isLt; have := r.isLt; omega⟩

/-- The blocks are visited in two halves of 32: this is the number of block `i` of half `c`. -/
def pointAt (c : Fin 2) (i : Fin 32) : Fin 64 :=
  ⟨c.val * 32 + i.val, by have := c.isLt; have := i.isLt; omega⟩

/-- The sum of the cosines of the 16384 pairs of rows of block `t`. -/
def blockSum (x y : Arr) (t : Fin 64) : EReal :=
  ∑ j : Fin 8, ∑ r : Fin 2048, cosK (row x (rowAt t j r)) (row y (rowAt t j r))

end Cert.MeanCos

end
-- ==== Proof.ChunkRead.lean ====
/-
  One piece of 2048 pairs of rows, read on the extended reals. Every operation is exact there, so the piece's three
  row-wise sums of products are finite sums over the 128 columns, each norm is the larger of a square root and the
  clamp, and the piece's one number is the sum, over its 2048 rows, of the quotient of the row's sum of products by
  the product of its two clamped norms: the specification's cosine of that pair of rows.
-/
import proofs.«104898_j74002286510639_2_alg».proof.Proof.Chunk
import proofs.«104898_j74002286510639_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Chunk
open Idealize.ShloMosaic Idealize.ShloMosaic.ValueIdx Cert.KernelIdeal Cert.KernelIdeal.Gen

variable {α : Type}

/-- A vector of `a` numbers recast as a column of `a` rows of one number reads, at row `i`, the vector at `i`:
    both sit at row-major position `i`, since `i * 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Summing a 2048 × 128 array along its columns: the source index over row `r` with column `d` inserted is `(r, d)`. -/
theorem lift_row (r : Fin 2048) (d : Fin 128) :
    reduces_S2048x128_S2048.lift (ix1 r) d = ix2 r d := by
  funext c
  refine Fin.ext ?_
  match c with
  | ⟨0, _⟩ => rfl
  | ⟨1, _⟩ => rfl

/-- Summing a column of 2048 numbers along its rows: the source index over the one result index with row `r` inserted
    is `(r, 0)`. -/
theorem lift_col (r : Fin 2048) :
    reduces_S2048x1_S1.lift (ix1 (0 : Fin 1)) r = ix2 r (0 : Fin 1) := by
  funext c
  refine Fin.ext ?_
  match c with
  | ⟨0, _⟩ => rfl
  | ⟨1, _⟩ => rfl

/-- On the extended reals a row's sum, kept in a column, is the sum of the row's 128 entries. -/
theorem rowSums_apply (v : FVec Ideal S2048x128 .f32) (r : Fin 2048) :
    rowSums (F := Ideal) v (ix2 r (0 : Fin 1)) = ∑ d : Fin 128, v (ix2 r d) := by
  unfold rowSums
  refine (shapeCast_a_a1_apply _ shapeCasts_S2048_S2048x1 r 0).trans ?_
  refine (Ideal.multiReduction_add_single v _ reduces_S2048x128_S2048 _ _ (ix1 r)).trans ?_
  exact Finset.sum_congr rfl fun d _ => congrArg v (lift_row r d)

/-- On the extended reals a row's clamped norm is the larger of the square root of its sum of squares and the clamp. -/
theorem normCol_apply (sq : FVec Ideal S2048x1 .f32) (r : Fin 2048) :
    normCol (F := Ideal) sq (ix2 r (0 : Fin 1)) = max (Ideal.sqrt (sq (ix2 r (0 : Fin 1)))) Cert.MeanCos.clampE := rfl

/-- On the extended reals the sum of the 2048 quotients, at the result's one index, is the sum over the rows of each
    row's product entry divided by the product of its two norm entries. -/
theorem quotSum_apply (pr na nb : FVec Ideal S2048x1 .f32) (y : S1x1.Idx) :
    quotSum (F := Ideal) pr na nb y
      = ∑ r : Fin 2048, Ideal.div (pr (ix2 r (0 : Fin 1))) (na (ix2 r (0 : Fin 1)) * nb (ix2 r (0 : Fin 1))) := by
  -- a 1 × 1 array has one index
  have hy : y = ix2 (0 : Fin 1) (0 : Fin 1) := by
    funext c
    refine Fin.ext ?_
    match c with
    | ⟨0, _⟩ => have := idx2_lt0 y; show (y 0).val = 0; omega
    | ⟨1, _⟩ => have := idx2_lt1 y; show (y 1).val = 0; omega
  subst hy
  unfold quotSum
  refine (shapeCast_a_1a_apply _ shapeCasts_S1_S1x1 0 0).trans ?_
  refine (Ideal.multiReduction_add_single (divf pr (mulf na nb)) _ reduces_S2048x1_S1 _ _ (ix1 (0 : Fin 1))).trans ?_
  exact Finset.sum_congr rfl fun r _ => congrArg (divf pr (mulf na nb)) (lift_col r)

/-- At the ideal instance one piece's result, at its one index, is the sum over its 2048 rows of the cosine of the
    pair of rows: the row's sum of products over the product of the two clamped norms. -/
theorem chunkCos_apply (a b : Vec Ideal S2048x128 .f32) (y : S1x1.Idx) :
    chunkCos (F := Ideal) a b y = ∑ r : Fin 2048, Cert.MeanCos.cosK (fun d => a (ix2 r d)) (fun d => b (ix2 r d)) := by
  unfold chunkCos
  rw [quotSum_apply]
  refine Finset.sum_congr rfl fun r _ => ?_
  rw [normCol_apply, normCol_apply, rowSums_apply, rowSums_apply, rowSums_apply]
  -- what is left is the cosine's definition, entry by entry
  rfl

end Cert.KernelIdeal.Chunk

end
-- ==== Proof.PieceRead.lean ====
/-
  A block of 16384 pairs of rows, read on the extended reals: its eight pieces of 2048 rows are rows 2048·j + r of
  the block, each piece gives the sum of its rows' cosines, and adding the eight up from zero gives the double sum
  over pieces and rows.
-/
import proofs.«104898_j74002286510639_2_alg».proof.Proof.Pieces
import proofs.«104898_j74002286510639_2_alg».proof.Proof.ChunkRead
import proofs.«104898_j74002286510639_2_alg».proof.Proof.Spec
import Idealize.ShloMosaic.Lib.ValueIdx
import Idealize.ShloMosaic.PureOps.Ideal.Laws

noncomputable section

open scoped BigOperators

namespace Cert.KernelIdeal.Bridge
open Idealize.ShloMosaic Idealize.ShloMosaic.ValueIdx Cert.KernelIdeal Cert.KernelIdeal.Gen Cert.KernelIdeal.Chunk

/-- Row `r` of the piece that starts at row `o` is row `o + r` of the block, whatever the float instance: the piece
    is read through a rectangle of unit strides placed at `(o, 0)`. -/
theorem pieceAt_apply {F : FTy → Type} [FloatOps F] (x : Vec F S16384x128 .f32) (o : Nat) (ho : o + 2048 ≤ 16384) (r : Fin 2048) (d : Fin 128) :
    pieceAt x o ho (ix2 r d) = x (ix2 (⟨o + r.val, by have := r.isLt; omega⟩ : Fin 16384) d) := by
  unfold pieceAt
  refine congrArg x (funext fun a => Fin.ext ?_)
  match a with
  | ⟨0, _⟩ => show o + 1 * r.val = o + r.val; rw [Nat.one_mul]
  | ⟨1, _⟩ => show 0 + 1 * d.val = d.val; rw [Nat.one_mul, Nat.zero_add]

/-- Row `r` of piece `j` of a block, as a row of 128 extended reals. -/
def blockRow (x : Vec Ideal S16384x128 .f32) (j : Fin 8) (r : Fin 2048) : Fin 128 → EReal :=
  fun d => x (ix2 (⟨2048 * j.val + r.val, by have := j.isLt; have := r.isLt; omega⟩ : Fin 16384) d)

/-- Row `r` of the piece that starts at row `2048 · j` is row `r` of piece `j`. -/
theorem pieceRow_eq (x : Vec Ideal S16384x128 .f32) (j : Fin 8) (o : Nat) (ho : o + 2048 ≤ 16384)
    (hoj : o = 2048 * j.val) (r : Fin 2048) :
    (fun d : Fin 128 => pieceAt x o ho (ix2 r d)) = blockRow x j r := by
  subst hoj
  funext d
  exact pieceAt_apply x _ ho r d

/-- The piece that starts at row `2048 · j` gives the sum of the cosines of the 2048 rows of piece `j`. -/
theorem chunkCos_piece (x0 x1 : Vec Ideal S16384x128 .f32) (j : Fin 8) (o : Nat) (ho : o + 2048 ≤ 16384)
    (hoj : o = 2048 * j.val) (y : S1x1.Idx) :
    chunkCos (F := Ideal) (pieceAt x0 o ho) (pieceAt x1 o ho) y
      = ∑ r : Fin 2048, Cert.MeanCos.cosK (blockRow x0 j r) (blockRow x1 j r) := by
  rw [chunkCos_apply]
  refine Finset.sum_congr rfl fun r _ => ?_
  rw [pieceRow_eq x0 j o ho hoj r, pieceRow_eq x1 j o ho hoj r]

/-- On the extended reals eight numbers added up from zero are their sum: the zero the chain starts from is the
    extended real 0. -/
theorem addUp_apply (s0 s1 s2 s3 s4 s5 s6 s7 : FVec Ideal S1x1 .f32) (y : S1x1.Idx) :
    addUp (F := Ideal) s0 s1 s2 s3 s4 s5 s6 s7 y = s0 y + s1 y + s2 y + s3 y + s4 y + s5 y + s6 y + s7 y := by
  show Ideal.ofBits .f32 0x00000000#32 + s0 y + s1 y + s2 y + s3 y + s4 y + s5 y + s6 y + s7 y = _
  rw [Ideal.ofBits_zero_f32, zero_add]

/-- At the ideal instance a block adds the sum, over its eight pieces and their 2048 rows, of the rows' cosines. -/
theorem blockPartial_apply (x0 x1 : Vec Ideal S16384x128 .f32) (y : S1x1.Idx) :
    blockPartial (F := Ideal) x0 x1 y = ∑ j : Fin 8, ∑ r : Fin 2048, Cert.MeanCos.cosK (blockRow x0 j r) (blockRow x1 j r) := by
  unfold blockPartial
  rw [addUp_apply, Fin.sum_univ_eight,
    chunkCos_piece x0 x1 0 0 _ rfl, chunkCos_piece x0 x1 1 2048 _ rfl, chunkCos_piece x0 x1 2 4096 _ rfl,
    chunkCos_piece x0 x1 3 6144 _ rfl, chunkCos_piece x0 x1 4 8192 _ rfl, chunkCos_piece x0 x1 5 10240 _ rfl,
    chunkCos_piece x0 x1 6 12288 _ rfl, chunkCos_piece x0 x1 7 14336 _ rfl]

end Cert.KernelIdeal.Bridge

end
-- ==== Proof.BlockSum.lean ====
/-
  A block of 16384 pairs of rows that is rows 16384·t, …, 16384·t + 16383 of the two whole arrays: row r of its piece j
  is row (8·t + j)·2048 + r of the array, since 16384·t + (2048·j + r) = (8·t + j)·2048 + r, so what the block adds to
  the carried sum is the specification's sum of cosines over block t.
-/
import proofs.«104898_j74002286510639_2_alg».proof.Proof.PieceRead
import proofs.«104898_j74002286510639_2_alg».proof.Proof.Spec

noncomputable section

open scoped BigOperators

namespace Cert.KernelIdeal.Bridge
open Idealize.ShloMosaic Idealize.ShloMosaic.ValueIdx Cert.KernelIdeal Cert.KernelIdeal.Gen Cert.MeanCos

/-- If a block is rows 16384·t onward of an array, row `r` of its piece `j` is the array's row numbered `rowAt t j r`. -/
theorem blockRow_eq_row (x : Vec Ideal S16384x128 .f32) (X : Cert.MeanCos.Arr) (t : Fin 64)
    (h : ∀ (r : Fin 16384) (d : Fin 128), x (ix2 r d) = X (ix2 (⟨t.val * 16384 + r.val, by have := t.isLt; have := r.isLt; omega⟩ : Fin 1048576) d))
    (j : Fin 8) (r : Fin 2048) : blockRow x j r = row X (rowAt t j r) := by
  funext d
  unfold blockRow row rowAt
  refine (h _ d).trans ?_
  refine congrArg (fun n : Fin 1048576 => X (ix2 n d)) (Fin.ext ?_)
  show t.val * 16384 + (2048 * j.val + r.val) = (t.val * 8 + j.val) * 2048 + r.val
  omega

/-- A block that is rows 16384·t onward of the two arrays adds block `t`'s sum of cosines. -/
theorem blockPartial_eq_blockSum (x0 x1 : Vec Ideal S16384x128 .f32) (X Y : Cert.MeanCos.Arr) (t : Fin 64)
    (h0 : ∀ (r : Fin 16384) (d : Fin 128), x0 (ix2 r d) = X (ix2 (⟨t.val * 16384 + r.val, by have := t.isLt; have := r.isLt; omega⟩ : Fin 1048576) d))
    (h1 : ∀ (r : Fin 16384) (d : Fin 128), x1 (ix2 r d) = Y (ix2 (⟨t.val * 16384 + r.val, by have := t.isLt; have := r.isLt; omega⟩ : Fin 1048576) d))
    (y : S1x1.Idx) :
    blockPartial (F := Ideal) x0 x1 y = blockSum X Y t := by
  rw [blockPartial_apply]
  unfold blockSum
  refine Finset.sum_congr rfl fun j _ => Finset.sum_congr rfl fun r _ => ?_
  rw [blockRow_eq_row x0 X t h0 j r, blockRow_eq_row x1 Y t h1 j r]

end Cert.KernelIdeal.Bridge

end
-- ==== Proof.OutSpec.lean ====
/-
  What the blocked program's 16×128 intermediate array holds: the rows are visited in two halves of 32 blocks; each half
  leaves the sum of its blocks' cosines at the first entry of its own 8×128 block (entries (0,0) and (8,0) of the array)
  and zero at every other entry, so the array's total is the sum over all the rows.
-/
import proofs.«104898_j74002286510639_2_alg».proof.Proof.Spec

noncomputable section

open scoped BigOperators

namespace Cert.MeanCos

open Idealize.ShloMosaic Idealize.ShloMosaic.ValueIdx

/-- The sum of the cosines over the 32 blocks of half `c`. -/
def halfSum (x y : Arr) (c : Fin 2) : EReal := ∑ i : Fin 32, blockSum x y (pointAt c i)

/-- A half's 8×128 block: a number at its first entry, zero elsewhere. -/
def cornerBlock (s : EReal) : (⟨2, ![8, 128]⟩ : Shape).Idx → EReal :=
  fun y => if (y 0).val = 0 ∧ (y 1).val = 0 then s else 0

/-- The 16×128 array: half `c`'s block is rows 8c … 8c+7. -/
def outArr (x y : Arr) : (⟨2, ![16, 128]⟩ : Shape).Idx → EReal :=
  fun j => if (j 0).val % 8 = 0 ∧ (j 1).val = 0 then halfSum x y ⟨(j 0).val / 8, by have := (j 0).isLt; change (j 0).val < 16 at this; omega⟩ else 0

end Cert.MeanCos

end
-- ==== Proof.AccSpec.lean ====
/-
  The carried sum, block by block: it restarts at the first block of each half of 32 blocks and otherwise grows by the
  block's sum of cosines; at the last block of a half it is the half's sum.
-/
import proofs.«104898_j74002286510639_2_alg».proof.Proof.OutSpec

noncomputable section

open scoped BigOperators

namespace Cert.MeanCos

open Idealize.ShloMosaic Idealize.ShloMosaic.ValueIdx

/-- The sum of block number `n`, zero past the 64 blocks. -/
def blockSumN (x y : Arr) (n : ℕ) : EReal := if h : n < 64 then blockSum x y ⟨n, h⟩ else 0

/-- The carried sum after block number `n`. -/
def accN (x y : Arr) : ℕ → EReal
  | 0 => blockSumN x y 0
  | n + 1 => if (n + 1) % 32 = 0 then blockSumN x y (n + 1) else accN x y n + blockSumN x y (n + 1)

end Cert.MeanCos

end
-- ==== Proof.Invariant.lean ====
/-
  The carried 1×1 sum after every grid point, at the ideal instance: after point `n` it holds the sum of the blocks'
  sums of cosines since the first block of the current half of 32 blocks. By induction on the point: the first block of
  a half resets it to zero before adding, every other block adds to what the previous point left.
-/
import proofs.«104898_j74002286510639_2_alg».proof.Proof.Pieces
import proofs.«104898_j74002286510639_2_alg».proof.Proof.BlockRead
import proofs.«104898_j74002286510639_2_alg».proof.Proof.BlockSum
import proofs.«104898_j74002286510639_2_alg».proof.Proof.AccSpec

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Chunk

open Idealize.ShloMosaic.ValueIdx Cert.MeanCos

variable (m : (ℓ : Loc nD τ sig) → Buf (Elt Ideal) ℓ)

/-- The two arrays as the region finds them. -/
abbrev Xa (c : Dev nD) : Cert.MeanCos.Arr := V m c main_arg0
abbrev Ya (c : Dev nD) : Cert.MeanCos.Arr := V m c main_arg1

/-- What the block at point `t` adds: block `t`'s sum of cosines. -/
theorem partial_at (c : Dev nD) (t : Fin cfg0.N) (y : S1x1.Idx) :
    blockPartial (F := Ideal) (iblk m c 0 t) (iblk m c 1 t) y = blockSumN (Xa m c) (Ya m c) t.val := by
  have hN : cfg0.N = 64 := N_0
  have ht : t.val < 64 := by have := t.isLt; omega
  unfold blockSumN; rw [dif_pos ht]
  exact blockPartial_eq_blockSum (iblk m c 0 t) (iblk m c 1 t) (Xa m c) (Ya m c) ⟨t.val, ht⟩
    (fun r d => iblk0_apply m c t r d) (fun r d => iblk1_apply m c t r d) y

/-- The 1×1 zero is zero. -/
theorem zero11_apply (y : S1x1.Idx) : zero11 (F := Ideal) y = 0 := by
  show Ideal.ofBits .f32 0x00000000#32 = 0
  exact Ideal.ofBits_zero_f32

/-- After point `n` the carried sum is the running sum of the current half. -/
theorem scratch_inv (c : Dev nD) : ∀ (n : ℕ) (hn : n < cfg0.N),
    (outsAt0 m c n hn).2 = fun _ => accN (Xa m c) (Ya m c) n
  | 0, hn => by
    have e := congrArg Prod.snd (outsAt0_A m c ⟨0, hn⟩ (Nat.zero_mod _) (by show ¬((0 : ℕ) % 32 = 31); decide))
    refine e.trans ?_
    dsimp only
    refine (sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _)
      ((hcond0_0 ⟨0, hn⟩).mpr (Nat.zero_mod _)) (fun h => (by decide : ¬(0 % 32 = 31)) ((hcond0_1 ⟨0, hn⟩).mp h)) (iblk m c 0 ⟨0, hn⟩) (iblk m c 1 ⟨0, hn⟩)).trans ?_
    funext y
    show zero11 (F := Ideal) y + blockPartial (F := Ideal) (iblk m c 0 ⟨0, hn⟩) (iblk m c 1 ⟨0, hn⟩) y = _
    rw [zero11_apply, zero_add, partial_at m c ⟨0, hn⟩ y]
    rfl
  | n + 1, hn => by
    have ih := scratch_inv c n (Nat.lt_of_succ_lt hn)
    by_cases h0 : (n + 1) % 32 = 0
    · have h1 : ¬(n + 1) % 32 = 31 := by omega
      have e := congrArg Prod.snd (outsAt0_A m c ⟨n + 1, hn⟩ h0 h1)
      refine e.trans ?_
      dsimp only
      refine (sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _)
        ((hcond0_0 ⟨n + 1, hn⟩).mpr h0) (fun h => h1 ((hcond0_1 ⟨n + 1, hn⟩).mp h)) (iblk m c 0 ⟨n + 1, hn⟩) (iblk m c 1 ⟨n + 1, hn⟩)).trans ?_
      funext y
      show zero11 (F := Ideal) y + blockPartial (F := Ideal) (iblk m c 0 ⟨n + 1, hn⟩) (iblk m c 1 ⟨n + 1, hn⟩) y = _
      rw [zero11_apply, zero_add, partial_at m c ⟨n + 1, hn⟩ y]
      show _ = accN (Xa m c) (Ya m c) (n + 1)
      rw [accN, if_pos h0]
    · by_cases h1 : (n + 1) % 32 = 31
      · have e := congrArg Prod.snd (outsAt0_C m c ⟨n + 1, hn⟩ h0 h1)
        refine e.trans ?_
        dsimp only
        refine (sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _)
          (fun h => h0 ((hcond0_0 ⟨n + 1, hn⟩).mp h)) ((hcond0_1 ⟨n + 1, hn⟩).mpr h1) (iblk m c 0 ⟨n + 1, hn⟩) (iblk m c 1 ⟨n + 1, hn⟩)
          (outsAt0 m c n (Nat.lt_of_succ_lt hn)).2).trans ?_
        funext y
        show (outsAt0 m c n (Nat.lt_of_succ_lt hn)).2 y + blockPartial (F := Ideal) (iblk m c 0 ⟨n + 1, hn⟩) (iblk m c 1 ⟨n + 1, hn⟩) y = _
        rw [ih, partial_at m c ⟨n + 1, hn⟩ y]
        show _ = accN (Xa m c) (Ya m c) (n + 1)
        rw [accN, if_neg h0]
      · have e := congrArg Prod.snd (outsAt0_B m c ⟨n + 1, hn⟩ h0 h1)
        refine e.trans ?_
        dsimp only
        refine (sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _)
          (fun h => h0 ((hcond0_0 ⟨n + 1, hn⟩).mp h)) (fun h => h1 ((hcond0_1 ⟨n + 1, hn⟩).mp h)) (iblk m c 0 ⟨n + 1, hn⟩) (iblk m c 1 ⟨n + 1, hn⟩)
          (outsAt0 m c n (Nat.lt_of_succ_lt hn)).2).trans ?_
        funext y
        show (outsAt0 m c n (Nat.lt_of_succ_lt hn)).2 y + blockPartial (F := Ideal) (iblk m c 0 ⟨n + 1, hn⟩) (iblk m c 1 ⟨n + 1, hn⟩) y = _
        rw [ih, partial_at m c ⟨n + 1, hn⟩ y]
        show _ = accN (Xa m c) (Ya m c) (n + 1)
        rw [accN, if_neg h0]

end Cert.KernelIdeal.Bridge

end
-- ==== Proof.OutRead.lean ====
/-
  The block the blocked program stores at the last block of a half, read at the ideal instance.
  The program builds the two coordinate grids of an 8×128 block, compares each with zero and joins the two
  comparisons, and selects the carried sum where both coordinates are zero and the number zero elsewhere.
  So the block holds the carried sum at entry (0,0) and zero at every other entry.
-/
import proofs.«104898_j74002286510639_2_alg».proof.Proof.Gen.KernelIdeal.Skeleton
import proofs.«104898_j74002286510639_2_alg».proof.Proof.OutSpec
import Idealize.ShloMosaic.Lib.ValueIdx
import Idealize.ShloMosaic.Lib.Pipeline.Value
import Idealize.ShloMosaic.PureOps.Ideal.Laws

noncomputable section

namespace Cert.KernelIdeal.OutRead
open Idealize.ShloMosaic Idealize.ShloMosaic.ValueIdx Cert.KernelIdeal Cert.KernelIdeal.Gen

/-- A number below 2³², written as a 32-bit word, equals the zero word exactly when it is zero. -/
theorem cmpi_eq_ofNat_zero (n : Nat) (hn : n < 4294967296) :
    IntOp.cmpi .eq (BitVec.ofNat 32 n) 0#32 = if n = 0 then 1#1 else 0#1 := by
  by_cases h : n = 0
  · subst h
    rw [if_pos rfl]
    rfl
  · rw [if_neg h]
    have hne : BitVec.ofNat 32 n ≠ 0#32 := by
      intro he
      have h2 := congrArg BitVec.toNat he
      rw [BitVec.toNat_ofNat, Nat.mod_eq_of_lt (by omega)] at h2
      exact h h2
    show BitVec.ofBool (BitVec.ofNat 32 n == 0#32) = 0#1
    rw [beq_eq_false_iff_ne.mpr hne]
    rfl

/-- The grid of first coordinates reads the first coordinate. -/
theorem iota0_apply (p : Fin 8) (q : Fin 128) :
    iota .tc S8x128 32 [0] iota_S8x128_d0_w32 (ix2 p q) = BitVec.ofNat 32 p.val := by
  rw [iota_single_apply]

/-- The grid of second coordinates reads the second coordinate. -/
theorem iota1_apply (p : Fin 8) (q : Fin 128) :
    iota .tc S8x128 32 [1] iota_S8x128_d1_w32 (ix2 p q) = BitVec.ofNat 32 q.val := by
  rw [iota_single_apply]

/-- The joined comparison is the bit 1 at entry (0,0) and the bit 0 at every other entry. -/
theorem cond_apply (p : Fin 8) (q : Fin 128) :
    (andi (cmpi .eq (iota .tc S8x128 32 [0] iota_S8x128_d0_w32) (broadcast S8x128 0#32))
        (cmpi .eq (iota .tc S8x128 32 [1] iota_S8x128_d1_w32) (broadcast S8x128 0#32))) (ix2 p q)
      = if p.val = 0 ∧ q.val = 0 then 1#1 else 0#1 := by
  show IntOp.andi (IntOp.cmpi .eq (iota .tc S8x128 32 [0] iota_S8x128_d0_w32 (ix2 p q)) 0#32)
      (IntOp.cmpi .eq (iota .tc S8x128 32 [1] iota_S8x128_d1_w32 (ix2 p q)) 0#32) = _
  have hp := p.isLt
  have hq := q.isLt
  rw [iota0_apply, iota1_apply, cmpi_eq_ofNat_zero _ (by omega), cmpi_eq_ofNat_zero _ (by omega)]
  by_cases h0 : p.val = 0 <;> by_cases h1 : q.val = 0 <;> simp [h0, h1, IntOp.andi]

/-- The entry taken out of the 1×1 array is its entry (0,0). -/
theorem extract_eq (v : Vec Ideal S1x1 .f32) : extractAt ![0, 0] v inpos_S1x1_p0_0 = v (ix2 0 0) := by
  unfold extractAt
  congr 1
  funext a
  match a with
  | ⟨0, _⟩ => exact Fin.ext rfl
  | ⟨1, _⟩ => exact Fin.ext rfl

/-- The block stored at the last block of a half: the carried sum at entry (0,0), zero elsewhere. -/
theorem pay2_eq (v : Vec Ideal S1x1 .f32) :
    k0_pay2 (F := Ideal) v = Cert.MeanCos.cornerBlock (v (ix2 0 0)) := by
  funext y
  obtain ⟨p, q, rfl⟩ : ∃ (p : Fin 8) (q : Fin 128), y = ix2 p q := ⟨y 0, y 1, eq_ix2 y⟩
  unfold k0_pay2
  rw [select_apply, broadcast_apply, broadcast_apply, cond_apply, extract_eq, Ideal.ofBits_def,
    Ideal.ofBits_zero_f32]
  show _ = (if p.val = 0 ∧ q.val = 0 then v (ix2 0 0) else 0)
  by_cases h : p.val = 0 ∧ q.val = 0
  · rw [if_pos h, if_pos h, select_one]
  · rw [if_neg h, if_neg h, select_zero]

end Cert.KernelIdeal.OutRead

end
-- ==== Proof.LibExtReal.lean ====
/- Extended reals that are real numbers are closed under the field operations (sum, difference,
   product, negation, maximum, finite sums, division by a nonzero real, reciprocal square root of a
   positive real), so an identity of real arithmetic transfers to the extended reals once every letter
   in it is known to be a real number. Also: the real numbers a few float constants denote. -/
import Idealize.ShloMosaic.PureOps.Ideal

noncomputable section

namespace Cert.LibExtReal

open Idealize.ShloMosaic

/-- An extended real is a real number: it is neither of the two infinities. -/
def IsReal (a : EReal) : Prop := ∃ r : ℝ, a = (r : EReal)

/-- A real number, read as an extended real, is a real number. -/
theorem IsReal.coe (r : ℝ) : IsReal (r : EReal) := ⟨r, rfl⟩

/-- Zero is a real number. -/
theorem IsReal.zero : IsReal (0 : EReal) := ⟨0, rfl⟩

/-- The sum of two real numbers is a real number. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The difference of two real numbers is a real number. -/
theorem IsReal.sub {a b : EReal} (ha : IsReal a) (hb : IsReal b) : IsReal (a - b) := by
  obtain ⟨x, rfl⟩ := ha
  obtain ⟨y, rfl⟩ := hb
  exact ⟨x - y, (EReal.coe_sub x y).symm⟩

/-- The product of two real numbers is a real number. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The negative of a real number is a real number. -/
theorem IsReal.neg {a : EReal} (ha : IsReal a) : IsReal (-a) := by
  obtain ⟨x, rfl⟩ := ha
  exact ⟨-x, (EReal.coe_neg x).symm⟩

/-- The larger of two real numbers is a real number. -/
theorem IsReal.max {a b : EReal} (ha : IsReal a) (hb : IsReal b) : IsReal (max a b) := by
  rcases max_choice a b with h | h
  · rw [h]; exact ha
  · rw [h]; exact hb

/-- A finite sum of real numbers, taken in the extended reals, is their sum as real numbers. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

/-- Dividing a real number by a nonzero real number is division of real numbers. -/
theorem div_coe_coe (x y : ℝ) (hy : y ≠ 0) :
    Ideal.div (x : EReal) (y : EReal) = ((x / y : ℝ) : EReal) := by
  rw [Ideal.div_coe hy, ← EReal.coe_mul]
  congr 1
  rw [mul_one_div]

/-- A real number divided by a nonzero real number is a real number. -/
theorem IsReal.div_coe {a : EReal} (ha : IsReal a) {y : ℝ} (hy : y ≠ 0) :
    IsReal (Ideal.div a (y : EReal)) := by
  obtain ⟨x, rfl⟩ := ha
  exact ⟨x / y, div_coe_coe x y hy⟩

/-- The reciprocal square root of a positive real number is the reciprocal of its square root. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real number is a real number. -/
theorem IsReal.rsqrt_of_pos {a : EReal} (h : ∃ r : ℝ, 0 < r ∧ a = (r : EReal)) :
    IsReal (Ideal.rsqrt a) := by
  obtain ⟨r, hr, rfl⟩ := h
  exact ⟨(Real.sqrt r)⁻¹, rsqrt_coe_pos hr⟩

/-- The pattern of `+0.0` denotes zero. -/
theorem ofBits_zero : Ideal.ofBits .f32 0x00000000#32 = (0 : EReal) := by
  simp [Ideal.ofBits, Ideal.ieee]

/-- The pattern of `1.0` denotes the real number one. -/
theorem ofBits_one : Ideal.ofBits .f32 0x3F800000#32 = ((1 : ℝ) : EReal) := by
  simp [Ideal.ofBits, Ideal.ieee, -EReal.coe_mul]; norm_num

/-- The pattern of `262144.0` (two to the eighteenth) denotes the real number 262144. -/
theorem ofBits_n : Ideal.ofBits .f32 0x48800000#32 = ((262144 : ℝ) : EReal) := by
  simp [Ideal.ofBits, Ideal.ieee, -EReal.coe_mul]; norm_num

/-- The pattern of the single-precision number nearest to one hundred-thousandth denotes a positive
    real number (its exact value is not needed). -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The larger of a nonnegative real number and zero is that number. -/
theorem max_eq_left_of_nonneg_coe {v : ℝ} (hv : 0 ≤ v) :
    max ((v : ℝ) : EReal) (0 : EReal) = ((v : ℝ) : EReal) := by
  apply max_eq_left
  exact_mod_cast hv

/-- The regrouping of an affine map: with every letter a real number,
    x·(I·Γ) + (((B + Zt) − Zb) − (M·I)·Γ) = (((x − M)·I)·Γ + B) + (Zt − Zb). -/
theorem affine_regroup {x M I Γ B Zt Zb : EReal} (hx : IsReal x) (hM : IsReal M) (hI : IsReal I)
    (hΓ : IsReal Γ) (hB : IsReal B) (hZt : IsReal Zt) (hZb : IsReal Zb) :
    x * (I * Γ) + (((B + Zt) - Zb) - (M * I) * Γ) = (((x - M) * I) * Γ + B) + (Zt - Zb) := by
  obtain ⟨x, rfl⟩ := hx
  obtain ⟨M, rfl⟩ := hM
  obtain ⟨I, rfl⟩ := hI
  obtain ⟨Γ, rfl⟩ := hΓ
  obtain ⟨B, rfl⟩ := hB
  obtain ⟨Zt, rfl⟩ := hZt
  obtain ⟨Zb, rfl⟩ := hZb
  simp only [← EReal.coe_mul, ← EReal.coe_add, ← EReal.coe_sub]
  congr 1
  ring

end Cert.LibExtReal

end
-- ==== Proof.SpecLaws.lean ====
/-
  Laws of the quantity both programs compute, as pure arithmetic on the extended reals.
  (1) The clamp under each norm is a positive real number.
  (2) For rows of real numbers the clamped norms p, q are positive reals, so dividing each row by its
      clamped norm before the products are summed gives the same number as dividing the sum of products by
      the product of the norms:  Σ_d (a_d / p)·(b_d / q) = (Σ_d a_d·b_d) / (p·q).
  (3) A sum over the 1,048,576 rows may be taken block by block and piece by piece, and a sum over the
      64 blocks half by half: each is a re-indexing of a finite sum along a bijection given by
      division with remainder.
-/
import proofs.«104898_j74002286510639_2_alg».proof.Proof.Spec
import proofs.«104898_j74002286510639_2_alg».proof.Proof.LibExtReal

noncomputable section

open scoped BigOperators

namespace Cert.MeanCos
open Cert.LibExtReal
open Idealize.ShloMosaic

/-- The clamp is a positive real number (its exact value is not needed). -/
theorem clampE_pos : ∃ e : ℝ, 0 < e ∧ clampE = (e : EReal) := by
  unfold clampE
  refine ⟨_, ?_, by simp [Ideal.ofBits, Ideal.ieee, -EReal.coe_mul]; rfl⟩
  positivity

/-- The larger of two real numbers, taken in the extended reals, is their larger as real numbers. -/
theorem max_coe_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The sum of products of two rows of real numbers is the real sum of products. -/
theorem dot_coe_real (ra rb : Fin 128 → ℝ) :
    dot (fun d => ((ra d : ℝ) : EReal)) (fun d => ((rb d : ℝ) : EReal))
      = ((∑ d : Fin 128, ra d * rb d : ℝ) : EReal) := by
  unfold dot
  simp only [← EReal.coe_mul]
  exact coe_sum _ _

/-- The clamped norm of a row of real numbers is a positive real number: the sum of squares is
    nonnegative, so its square root is a real number, and the clamp is positive. -/
theorem cnorm_coe_real (ra : Fin 128 → ℝ) :
    ∃ p : ℝ, 0 < p ∧ cnorm (fun d => ((ra d : ℝ) : EReal)) = (p : EReal) := by
  obtain ⟨e, he, hE⟩ := clampE_pos
  refine ⟨max (Real.sqrt (∑ d : Fin 128, ra d * ra d)) e, lt_max_of_lt_right he, ?_⟩
  have h0 : ¬ (∑ d : Fin 128, ra d * ra d) < 0 :=
    not_lt.mpr (Finset.sum_nonneg (fun d _ => mul_self_nonneg (ra d)))
  unfold cnorm
  rw [dot_coe_real, Ideal.sqrt_coe, if_neg h0, hE, max_coe_coe]

/-- For rows of real numbers, dividing each row by its clamped norm before the products are summed
    gives the sum of products over the product of the clamped norms: with p, q > 0 real,
    Σ_d (a_d / p)·(b_d / q) = (Σ_d a_d·b_d) / (p·q). -/
theorem cosR_eq_cosK (a b : Fin 128 → EReal) (ha : ∀ d, IsReal (a d)) (hb : ∀ d, IsReal (b d)) :
    cosR a b = cosK a b := by
  choose ra hra using ha
  choose rb hrb using hb
  obtain rfl : a = fun d => ((ra d : ℝ) : EReal) := funext hra
  obtain rfl : b = fun d => ((rb d : ℝ) : EReal) := funext hrb
  obtain ⟨p, hp, hP⟩ := cnorm_coe_real ra
  obtain ⟨q, hq, hQ⟩ := cnorm_coe_real rb
  unfold cosR cosK
  rw [hP, hQ, dot_coe_real, ← EReal.coe_mul, div_coe_coe _ _ (mul_pos hp hq).ne']
  simp only [div_coe_coe _ _ hp.ne', div_coe_coe _ _ hq.ne', ← EReal.coe_mul]
  rw [coe_sum]
  congr 1
  rw [Finset.sum_div]
  refine Finset.sum_congr rfl (fun d _ => ?_)
  field_simp

/-- Rows numbered by block, piece and place within the piece: the numbering is a bijection onto the
    1,048,576 rows, its inverse given by division with remainder. -/
def rowEquiv : Fin 64 × Fin 8 × Fin 2048 ≃ Fin 1048576 where
  toFun p := rowAt p.1 p.2.1 p.2.2
  invFun n :=
    (⟨n.val / 16384, by have := n.isLt; omega⟩, ⟨n.val / 2048 % 8, by omega⟩, ⟨n.val % 2048, by omega⟩)
  left_inv := by
    rintro ⟨t, j, r⟩
    have := t.isLt
    have := j.isLt
    have := r.isLt
    simp only [rowAt, Prod.mk.injEq, Fin.ext_iff]
    refine ⟨?_, ?_, ?_⟩ <;> omega
  right_inv := by
    intro n
    have := n.isLt
    simp only [rowAt, Fin.ext_iff]
    omega

/-- Blocks numbered by half and place within the half: a bijection onto the 64 blocks. -/
def pointEquiv : Fin 2 × Fin 32 ≃ Fin 64 where
  toFun p := pointAt p.1 p.2
  invFun n := (⟨n.val / 32, by have := n.isLt; omega⟩, ⟨n.val % 32, by omega⟩)
  left_inv := by
    rintro ⟨c, i⟩
    have := c.isLt
    have := i.isLt
    simp only [pointAt, Prod.mk.injEq, Fin.ext_iff]
    refine ⟨?_, ?_⟩ <;> omega
  right_inv := by
    intro n
    have := n.isLt
    simp only [pointAt, Fin.ext_iff]
    omega

/-- A sum over the 1,048,576 rows taken block by block, piece by piece. -/
theorem sum_rows_split (f : Fin 1048576 → EReal) :
    ∑ n : Fin 1048576, f n = ∑ t : Fin 64, ∑ j : Fin 8, ∑ r : Fin 2048, f (rowAt t j r) := by
  rw [← Equiv.sum_comp rowEquiv f, Fintype.sum_prod_type]
  refine Finset.sum_congr rfl (fun t _ => ?_)
  rw [Fintype.sum_prod_type]
  exact Finset.sum_congr rfl (fun j _ => Finset.sum_congr rfl (fun r _ => rfl))

/-- A sum over the 64 blocks taken half by half. -/
theorem sum_points_split (g : Fin 64 → EReal) :
    ∑ t : Fin 64, g t = ∑ c : Fin 2, ∑ i : Fin 32, g (pointAt c i) := by
  rw [← Equiv.sum_comp pointEquiv g, Fintype.sum_prod_type]
  exact Finset.sum_congr rfl (fun c _ => Finset.sum_congr rfl (fun i _ => rfl))

end Cert.MeanCos

end
-- ==== Proof.OutLaws.lean ====
/-
  Laws of the 16×128 intermediate array, as pure arithmetic on finite sums.
  The array's rows 8c … 8c+7 are half c's block, which holds the half's sum at its first entry and zero at
  every other entry. So the sum of a block's entries is that one number, the array's total is the sum of
  the two halves' sums, and — the halves' blocks and pieces partitioning the rows — that is the sum of the
  cosines over all the rows.
-/
import proofs.«104898_j74002286510639_2_alg».proof.Proof.OutSpec
import proofs.«104898_j74002286510639_2_alg».proof.Proof.SpecLaws

noncomputable section

open scoped BigOperators

namespace Cert.MeanCos
open Idealize.ShloMosaic Idealize.ShloMosaic.ValueIdx

/-- Rows 8c … 8c+7 of the array are half c's corner block: 8c+p leaves remainder p and quotient c on
    division by 8. -/
theorem outArr_block (x y : Arr) (c : Fin 2) (p : Fin 8) (q : Fin 128) :
    outArr x y (ix2 (⟨8 * c.val + p.val, by have := c.isLt; have := p.isLt; omega⟩ : Fin 16) q)
      = cornerBlock (halfSum x y c) (ix2 p q) := by
  have hc := c.isLt
  have hp := p.isLt
  have h1 : (8 * c.val + p.val) % 8 = p.val := by omega
  have h2 : (8 * c.val + p.val) / 8 = c.val := by omega
  show (if (8 * c.val + p.val) % 8 = 0 ∧ q.val = 0
          then halfSum x y ⟨(8 * c.val + p.val) / 8, _⟩ else 0)
        = (if p.val = 0 ∧ q.val = 0 then halfSum x y c else 0)
  rw [h1]
  by_cases h : p.val = 0 ∧ q.val = 0
  · rw [if_pos h, if_pos h]
    congr 1
    exact Fin.ext h2
  · rw [if_neg h, if_neg h]

/-- The entries of a corner block sum to the number at its first entry. -/
theorem sum_cornerBlock (s : EReal) :
    ∑ p : Fin 8, ∑ q : Fin 128, cornerBlock s (ix2 p q) = s := by
  have hval : ∀ (p : Fin 8) (q : Fin 128),
      cornerBlock s (ix2 p q) = if p.val = 0 ∧ q.val = 0 then s else 0 := fun _ _ => rfl
  rw [Finset.sum_eq_single (0 : Fin 8)]
  · rw [Finset.sum_eq_single (0 : Fin 128)]
    · rw [hval, if_pos ⟨rfl, rfl⟩]
    · intro q _ hq
      rw [hval, if_neg]
      rintro ⟨-, h⟩
      exact hq (Fin.ext h)
    · intro h
      exact absurd (Finset.mem_univ _) h
  · intro p _ hp
    refine Finset.sum_eq_zero (fun q _ => ?_)
    rw [hval, if_neg]
    rintro ⟨h, -⟩
    exact hp (Fin.ext h)
  · intro h
    exact absurd (Finset.mem_univ _) h

/-- The 16 rows numbered by half and place within the half's block: a bijection, its inverse given by
    division by 8 with remainder. -/
def halfRowEquiv : Fin 2 × Fin 8 ≃ Fin 16 where
  toFun cp := ⟨8 * cp.1.val + cp.2.val, by have := cp.1.isLt; have := cp.2.isLt; omega⟩
  invFun a := (⟨a.val / 8, by have := a.isLt; omega⟩, ⟨a.val % 8, by omega⟩)
  left_inv := by
    rintro ⟨c, p⟩
    have := c.isLt
    have := p.isLt
    simp only [Prod.mk.injEq, Fin.ext_iff]
    refine ⟨?_, ?_⟩ <;> omega
  right_inv := by
    intro a
    have := a.isLt
    simp only [Fin.ext_iff]
    omega

/-- The array's total is the sum of the two halves' sums: taken half by half, each half's block sums to
    the half's sum. -/
theorem sum_outArr (x y : Arr) :
    ∑ j : (⟨2, ![16, 128]⟩ : Shape).Idx, outArr x y j = ∑ c : Fin 2, halfSum x y c := by
  rw [sum_idx2, ← Equiv.sum_comp halfRowEquiv (fun a : Fin 16 => ∑ b : Fin 128, outArr x y (ix2 a b)),
    Fintype.sum_prod_type]
  refine Finset.sum_congr rfl (fun c _ => ?_)
  rw [← sum_cornerBlock (halfSum x y c)]
  refine Finset.sum_congr rfl (fun p _ => Finset.sum_congr rfl (fun q _ => ?_))
  exact outArr_block x y c p q

/-- And that is the sum of the cosines over all the rows: the rows taken block by block and piece by
    piece, the blocks half by half. -/
theorem sum_outArr_rows (x y : Arr) :
    ∑ j : (⟨2, ![16, 128]⟩ : Shape).Idx, outArr x y j = ∑ n : Fin 1048576, cosK (row x n) (row y n) := by
  rw [sum_outArr, sum_rows_split (fun n => cosK (row x n) (row y n)),
    sum_points_split (fun t => ∑ j : Fin 8, ∑ r : Fin 2048,
      cosK (row x (rowAt t j r)) (row y (rowAt t j r)))]
  rfl

end Cert.MeanCos

end
-- ==== Proof.AccLaws.lean ====
/-
  Laws of the carried sum, as pure arithmetic on the block numbers.
  The carried sum restarts at a block whose number is a multiple of 32 and otherwise grows by the block's sum.
  So within a half it is the sum of the half's blocks so far, and at the last block of a half it is the
  half's sum.
-/
import proofs.«104898_j74002286510639_2_alg».proof.Proof.AccSpec

noncomputable section

open scoped BigOperators

namespace Cert.MeanCos

/-- At a block whose number is a multiple of 32 the carried sum is that block's sum. -/
theorem accN_restart (x y : Arr) (n : ℕ) (h : n % 32 = 0) : accN x y n = blockSumN x y n := by
  cases n with
  | zero => rw [accN]
  | succ m => rw [accN, if_pos h]

/-- At a block whose number is not a multiple of 32 the carried sum grows by that block's sum. -/
theorem accN_step (x y : Arr) (n : ℕ) (h : (n + 1) % 32 ≠ 0) :
    accN x y (n + 1) = accN x y n + blockSumN x y (n + 1) := by
  rw [accN, if_neg h]

/-- Within a half the carried sum is the sum of the half's blocks so far. -/
theorem accN_within (x y : Arr) (c : Fin 2) (k : ℕ) (hk : k < 32) :
    accN x y (32 * c.val + k) = ∑ i ∈ Finset.range (k + 1), blockSumN x y (32 * c.val + i) := by
  induction k with
  | zero =>
    rw [Finset.sum_range_one]
    exact accN_restart x y _ (by omega)
  | succ k ih =>
    rw [Finset.sum_range_succ, ← ih (by omega)]
    have e : 32 * c.val + (k + 1) = (32 * c.val + k) + 1 := by omega
    rw [e]
    exact accN_step x y _ (by omega)

/-- At the last block of a half the carried sum is the half's sum: the 32 blocks numbered 32c + i are the
    blocks of half c. -/
theorem accN_last (x y : Arr) (c : Fin 2) : accN x y (32 * c.val + 31) = halfSum x y c := by
  have h := accN_within x y c 31 (by omega)
  rw [h]
  show ∑ i ∈ Finset.range 32, blockSumN x y (32 * c.val + i) = halfSum x y c
  unfold halfSum
  rw [Finset.sum_range]
  refine Finset.sum_congr rfl (fun i _ => ?_)
  have hc := c.isLt
  have hi := i.isLt
  unfold blockSumN
  rw [dif_pos (by omega)]
  congr 1
  apply Fin.ext
  simp only [pointAt]
  omega

end Cert.MeanCos

end
-- ==== Proof.Tail.lean ====
/-
  After its one region the blocked program runs four host operations on the 16×128 array the region leaves: a zero,
  the sum of the array over both of its axes starting from that zero, the constant 2²⁰ (the number of rows), and
  the quotient of the sum by that constant. On the extended reals, where the sum is exact and starts from zero, the
  result is the total of the array divided by the number of rows. The second statement reads the whole program's run
  with that value in the result buffer and the two argument arrays unchanged.
-/
import proofs.«104898_j74002286510639_2_alg».proof.Proof.Gen.KernelIdeal.Frame
import proofs.«104898_j74002286510639_2_alg».proof.Proof.Spec
import Idealize.ShloMosaic.Lib.StableHlo.Run
import Idealize.ShloMosaic.Lib.ValueIdx
import Idealize.ShloMosaic.PureOps.Ideal.Laws

set_option maxRecDepth 16384

noncomputable section

open scoped BigOperators

namespace Cert.KernelIdeal.Tail
open Idealize.ShloMosaic Idealize.ShloMosaic.TcCoe Idealize.SL.Sem Cert.KernelIdeal Cert.KernelIdeal.Gen
open Idealize.ShloMosaic.StableHlo

/-- the result after the region: the total of the 16×128 array over the number of rows -/
theorem tail_value (m : (ℓ : Loc nD τ sig) → Buf (Elt Ideal) ℓ) (c : Dev nD) (G : (⟨2, ![16, 128]⟩ : Shape).Idx → EReal)
    (hfinal : (dats (F := Ideal) m 0 c).arrAt 2 cfg0.N = G) :
    Pipeline.afterTail₀ cfgs (dats (F := Ideal) m) 0 (V0 m) [hostOps1] c main_v2 = fun _ => Ideal.div (∑ j, G j) Cert.MeanCos.rowsE := by
  unfold Pipeline.afterTail₀
  show StableHlo.after hostOps1 _ (Proc.devRef .tc main_v2) = _
  after_results
  have hw : Pipeline.withArrays (cfgs 0).spec c (V0 m c) (fun w => (dats (F := Ideal) m 0 c).arrAt w (cfgs 0).N)
      (Proc.devRef .tc main_v0) = G :=
    (Pipeline.withArrays_arr spec0 launch0.win.arr_inj c _ _ 2).trans hfinal
  rw [hw]
  funext i
  have hsum : Host.reduceAdd (F := Ideal) G (constant S_ .f32 0x00000000#32) reducesTo_S16x128_S_d0_1 h_S_ i = ∑ j, G j := by
    simp only [Host.reduceAdd, Ideal.hostReduceAdd_def]
    rw [Ideal.hostReduceAdd_total reducesTo_S16x128_S_d0_1 (fun b => b.elim0), ValueIdx.constant_apply,
      Ideal.ofBits_zero_f32, zero_add]
  show Ideal.div (Host.reduceAdd (F := Ideal) G (constant S_ .f32 0x00000000#32) reducesTo_S16x128_S_d0_1 h_S_ i)
      (constant (F := Ideal) S_ .f32 0x49800000#32 i) = _
  rw [hsum, ValueIdx.constant_apply]
  rfl

/-- the whole program's run: the result buffer at that value, the two argument arrays unchanged -/
theorem run_value (m : (ℓ : Loc nD τ sig) → Buf (Elt Ideal) ℓ) (ρ : Dev nD → PrngReg) (G : Dev nD → (⟨2, ![16, 128]⟩ : Shape).Idx → EReal)
    (hfinal : ∀ c, (dats (F := Ideal) m 0 c).arrAt 2 cfg0.N = G c) :
    θ_run (defs (F := Ideal)) (onTc (τ := τ) (main (F := Ideal))) ⟨m, fun _ => 0, ρ⟩ (fun r => ∀ c : Dev nD,
      r.2.mem ((c.tc : Thread nD τ).loc main_v2) = (fun _ => Ideal.div (∑ j, G c j) Cert.MeanCos.rowsE)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v2 (Pipeline.mem_restRefs_of main_v2 rfl (by decide))).trans (tail_value m c (G c) (hfinal c)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Tail

end
-- ==== Proof.Final.lean ====
/-
  What the region leaves in the 16×128 array, at the ideal instance. The output block is written only at the last
  point of each half of 32 points, and there it is the corner block of the carried sum, which by then is the half's
  sum; the two blocks written back cover the array; so the array is the specification's, and the program's result —
  its total over the number of rows — is the mean of the rows' cosines.
-/
import proofs.«104898_j74002286510639_2_alg».proof.Proof.Invariant
import proofs.«104898_j74002286510639_2_alg».proof.Proof.OutRead
import proofs.«104898_j74002286510639_2_alg».proof.Proof.OutLaws
import proofs.«104898_j74002286510639_2_alg».proof.Proof.AccLaws
import proofs.«104898_j74002286510639_2_alg».proof.Proof.Tail

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Chunk

open Idealize.ShloMosaic.ValueIdx Cert.MeanCos

variable (m : (ℓ : Loc nD τ sig) → Buf (Elt Ideal) ℓ)

/-- At the last point of a half the output block is the corner block of the carried sum after that point. -/
theorem out_at_last (c : Dev nD) (t : Fin cfg0.N) (h0 : ¬t.val % 32 = 0) (h1 : t.val % 32 = 31) :
    (outsAt0 m c t.val t.isLt).1 = cornerBlock (accN (Xa m c) (Ya m c) t.val) := by
  have e := congrArg Prod.fst (outsAt0_C m c t h0 h1)
  refine e.trans ?_
  dsimp only
  refine (out_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).trans ?_
  refine (Cert.KernelIdeal.OutRead.pay2_eq _).trans ?_
  refine congrArg cornerBlock ?_
  have hs := congrFun (scratch_inv m c t.val t.isLt) (ix2 (0 : Fin 1) (0 : Fin 1))
  have e2 := congrArg Prod.snd (outsAt0_C m c t h0 h1)
  dsimp only at e2
  have e3 := e2.trans (sout_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)
  rw [← hs, e3]

/-- What a writing-back point writes back is its block of the specification's array. -/
theorem flushed_eq (c : Dev nD) (t : Fin cfg0.N) (hf : (cfg0.win 2).flush t = true) :
    (dats m 0 c).flushed 2 t = ((cfg0.win 2).blk t).view.read (Elt Ideal) (outArr (Xa m c) (Ya m c)) := by
  obtain ⟨-, -, -, -, e0, e1, ef⟩ := idx_facts t
  have h1 : t.val % 32 = 31 := ef.mp hf
  have h0 : ¬t.val % 32 = 0 := by omega
  have hN : cfg0.N = 64 := N_0
  have ht : t.val < 64 := by have := t.isLt; omega
  show (cfg0.win 2).cut (grid0.coords t) ((dats m 0 c).after 2 t) = _
  rw [after0_2, out_at_last m c t h0 h1]
  funext j
  obtain ⟨p, q, rfl⟩ : ∃ (p : Fin 8) (q : Fin 128), j = ix2 p q := ⟨j 0, j 1, eq_ix2 j⟩
  show cornerBlock (accN (Xa m c) (Ya m c) t.val) (ix2 p q) = outArr (Xa m c) (Ya m c) (((cfg0.win 2).blk t).view.emb (ix2 p q))
  have hemb : ((cfg0.win 2).blk t).view.emb (ix2 p q)
      = ix2 (⟨8 * (⟨t.val / 32, by omega⟩ : Fin 2).val + p.val, by have := p.isLt; show 8 * (t.val / 32) + p.val < 16; omega⟩ : Fin 16) q := by
    funext a; apply Fin.ext
    match a with
    | ⟨0, _⟩ => show win0_2.index t (0 : Fin 2) * 8 + 1 * p.val = 8 * (t.val / 32) + p.val; omega
    | ⟨1, _⟩ => show win0_2.index t (1 : Fin 2) * 128 + 1 * q.val = q.val; omega
  rw [hemb, outArr_block (Xa m c) (Ya m c) ⟨t.val / 32, by omega⟩ p q, ← accN_last]
  have hv : 32 * (⟨t.val / 32, by omega⟩ : Fin 2).val + 31 = t.val := by show 32 * (t.val / 32) + 31 = t.val; omega
  rw [hv]

/-- An index of the array is in point `t`'s block iff each coordinate is in the block's range on its axis. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every index of the array is in the block of the last point of its half, which writes back. -/
theorem covered (i : S16x128.Idx) : ∃ t : Fin cfg0.N, (cfg0.win 2).flush t = true ∧ i ∈ ((cfg0.win 2).blk t).view.set := by
  have hN : cfg0.N = 64 := N_0
  have hi0 : (i 0).val < 16 := (i 0).isLt
  have hi1 : (i 1).val < 128 := (i 1).isLt
  have hb : 32 * ((i 0).val / 8) + 31 < cfg0.N := by omega
  obtain ⟨-, -, -, -, e0, e1, ef⟩ := idx_facts ⟨32 * ((i 0).val / 8) + 31, hb⟩
  have e0' : win0_2.index ⟨32 * ((i 0).val / 8) + 31, hb⟩ (0 : Fin 2) = (32 * ((i 0).val / 8) + 31) / 32 := e0
  refine ⟨⟨32 * ((i 0).val / 8) + 31, hb⟩, ef.mpr (by show (32 * ((i 0).val / 8) + 31) % 32 = 31; omega), ?_⟩
  rw [mem_blk2]
  intro a
  match a with
  | ⟨0, _⟩ => show win0_2.index ⟨32 * ((i 0).val / 8) + 31, hb⟩ (0 : Fin 2) * 8 ≤ (i 0).val ∧ (i 0).val < win0_2.index ⟨32 * ((i 0).val / 8) + 31, hb⟩ (0 : Fin 2) * 8 + 8; omega
  | ⟨1, _⟩ => show win0_2.index ⟨32 * ((i 0).val / 8) + 31, hb⟩ (1 : Fin 2) * 128 ≤ (i 1).val ∧ (i 1).val < win0_2.index ⟨32 * ((i 0).val / 8) + 31, hb⟩ (1 : Fin 2) * 128 + 128; omega

/-- The array after the run is the specification's. -/
theorem final (c : Dev nD) : (dats m 0 c).arrAt 2 cfg0.N = outArr (Xa m c) (Ya m c) :=
  (dats m 0 c).arrAt_eq_of_cover 2 (outArr (Xa m c) (Ya m c)) (fun t hf => flushed_eq m c t hf) covered

/-- The blocked program's run: its result is the mean of the cosines of the rows of its two argument arrays, which
    it leaves unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = (fun _ => meanCos (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun r h c => ⟨(h c).1.trans (funext fun _ => congrArg (fun s => Ideal.div s rowsE) (sum_outArr_rows (Xa m c) (Ya m c))), (h c).2⟩)
    (Cert.KernelIdeal.Tail.run_value m ρ (fun c => outArr (Xa m c) (Ya m c)) (final m))

end Cert.KernelIdeal.Bridge

end
-- ==== Proof.RefRead.lean ====
/-
  The reference's result read at the ideal instance. Stage by stage the reference squares each entry, sums each row,
  takes the square root and clamps it from below (the clamped norm of the row), divides every entry by its row's
  clamped norm, multiplies the two arrays entry by entry, sums each row, sums the rows, and divides by the number of
  rows. Read on the extended reals, where every operation is exact and every initial value of a sum is zero, this is
  the mean over the rows of the cosine of each pair of rows, every row divided by its clamped norm before the
  products are summed.
-/
import proofs.«104898_j74002286510639_2_alg».proof.Proof.Gen.ReferenceIdeal.Read
import proofs.«104898_j74002286510639_2_alg».proof.Proof.Spec
import Idealize.ShloMosaic.Lib.ValueIdx
import Idealize.ShloMosaic.PureOps.Ideal.Laws

noncomputable section

open scoped BigOperators

namespace Cert.ReferenceIdeal.RefRead
open Idealize.ShloMosaic Idealize.ShloMosaic.ValueIdx Cert.ReferenceIdeal Cert.ReferenceIdeal.Gen

/-- A sum over the indices of an array with one axis is the sum over that axis's coordinate. -/
theorem sum_idx1 {M : Type*} [AddCommMonoid M] {n : Nat} (f : (⟨1, ![n]⟩ : Shape).Idx → M) :
    ∑ j, f j = ∑ a : Fin n, f (ix1 a) := by
  let e : Fin n ≃ (⟨1, ![n]⟩ : Shape).Idx :=
    { toFun := ix1, invFun := fun j => j 0, left_inv := fun _ => rfl, right_inv := fun j => (eq_ix1 j).symm }
  exact (Equiv.sum_comp e f).symm

/-- The index of entry `k` of row `n`, as the row sums reach it. -/
theorem idx_row (n : Fin 1048576) (k : Fin 128) :
    Read.idx_main_v11 (ix1 n) k = ix2 n k :=
  funext fun a => Fin.ext (by match a with | ⟨0, _⟩ => rfl | ⟨1, _⟩ => rfl)

/-- The first array's clamped norms: the stage that holds them, read at row `n`, is the clamped norm of row `n`. -/
theorem norm0 (x0 : (⟨S1048576x128, .f32⟩ : BufTy).Contents (Elt Ideal)) (n : Fin 1048576) :
    Read.val_main_v2 (F := Ideal) x0 (ix2 n (0 : Fin 1)) = Cert.MeanCos.cnorm (Cert.MeanCos.row x0 n) := by
  rw [Read.val_main_v2_apply, Ideal.maximumf_def, Read.val_main_v0_apply, Ideal.hostUnary_sqrt_def,
    Read.val_main_call0_v2_apply, Read.val_main_v1_apply, Read.val_main_cst_apply, Ideal.ofBits_def]
  have hi : Read.idx_main_call0_v2 (ix2 n (0 : Fin 1)) = ix1 n :=
    funext fun a => Fin.ext (by match a with | ⟨0, _⟩ => rfl)
  rw [hi, Read.val_main_call0_v1_apply, Read.val_main_call0_cst_apply, Ideal.ofBits_def, Ideal.ofBits_zero_f32, zero_add]
  unfold Cert.MeanCos.cnorm Cert.MeanCos.dot Cert.MeanCos.clampE
  refine congrArg (fun s => max (Ideal.sqrt s) _) (Finset.sum_congr rfl fun k _ => ?_)
  have hk : Read.idx_main_call0_v1 (ix1 n) k = ix2 n k :=
    funext fun a => Fin.ext (by match a with | ⟨0, _⟩ => rfl | ⟨1, _⟩ => rfl)
  rw [hk, Read.val_main_call0_v0_apply, Ideal.mulf_def]
  rfl

/-- The second array's clamped norms, likewise. -/
theorem norm1 (x1 : (⟨S1048576x128, .f32⟩ : BufTy).Contents (Elt Ideal)) (n : Fin 1048576) :
    Read.val_main_v5 (F := Ideal) x1 (ix2 n (0 : Fin 1)) = Cert.MeanCos.cnorm (Cert.MeanCos.row x1 n) := by
  rw [Read.val_main_v5_apply, Ideal.maximumf_def, Read.val_main_v3_apply, Ideal.hostUnary_sqrt_def,
    Read.val_main_call1_v2_apply, Read.val_main_v4_apply, Read.val_main_cst_0_apply, Ideal.ofBits_def]
  have hi : Read.idx_main_call1_v2 (ix2 n (0 : Fin 1)) = ix1 n :=
    funext fun a => Fin.ext (by match a with | ⟨0, _⟩ => rfl)
  rw [hi, Read.val_main_call1_v1_apply, Read.val_main_call1_cst_apply, Ideal.ofBits_def, Ideal.ofBits_zero_f32, zero_add]
  unfold Cert.MeanCos.cnorm Cert.MeanCos.dot Cert.MeanCos.clampE
  refine congrArg (fun s => max (Ideal.sqrt s) _) (Finset.sum_congr rfl fun k _ => ?_)
  have hk : Read.idx_main_call1_v1 (ix1 n) k = ix2 n k :=
    funext fun a => Fin.ext (by match a with | ⟨0, _⟩ => rfl | ⟨1, _⟩ => rfl)
  rw [hk, Read.val_main_call1_v0_apply, Ideal.mulf_def]
  rfl

/-- One row: the sum over the row of the products of the two normalised rows. -/
theorem row_value (x0 x1 : (⟨S1048576x128, .f32⟩ : BufTy).Contents (Elt Ideal)) (n : Fin 1048576) :
    Read.val_main_v11 (F := Ideal) x0 x1 (ix1 n)
      = Cert.MeanCos.cosR (Cert.MeanCos.row x0 n) (Cert.MeanCos.row x1 n) := by
  rw [Read.val_main_v11_apply, Read.val_main_cst_1_apply, Ideal.ofBits_def, Ideal.ofBits_zero_f32, zero_add]
  unfold Cert.MeanCos.cosR
  refine Finset.sum_congr rfl fun k _ => ?_
  have h6 : Read.idx_main_v6 (ix2 n k) = ix2 n (0 : Fin 1) :=
    funext fun a => Fin.ext (by match a with | ⟨0, _⟩ => rfl | ⟨1, _⟩ => rfl)
  have h8 : Read.idx_main_v8 (ix2 n k) = ix2 n (0 : Fin 1) :=
    funext fun a => Fin.ext (by match a with | ⟨0, _⟩ => rfl | ⟨1, _⟩ => rfl)
  rw [idx_row, Read.val_main_v10_apply, Ideal.mulf_def, Read.val_main_v7_apply, Read.val_main_v9_apply,
    Ideal.hostDivf_def, Ideal.hostDivf_def, Read.val_main_v6_apply, Read.val_main_v8_apply, h6, h8, norm0, norm1]
  rfl

/-- the reference's result is the mean of the rows' cosines, each row divided by its clamped norm first -/
theorem ref_value (x0 x1 : (⟨S1048576x128, .f32⟩ : BufTy).Contents (Elt Ideal)) (i : S_.Idx) :
    Cert.ReferenceIdeal.Read.val_main_v13 (F := Ideal) x0 x1 i
      = Ideal.div (∑ n : Fin 1048576, Cert.MeanCos.cosR (Cert.MeanCos.row x0 n) (Cert.MeanCos.row x1 n)) Cert.MeanCos.rowsE := by
  rw [Read.val_main_v13_apply, Ideal.hostDivf_def, Read.val_main_v12_apply, Read.val_main_cst_2_apply,
    Read.val_main_cst_3_apply, Ideal.ofBits_def, Ideal.ofBits_def, Ideal.ofBits_zero_f32, zero_add, sum_idx1]
  have hs : (∑ a : Fin 1048576, Read.val_main_v11 (F := Ideal) x0 x1 (ix1 a))
      = ∑ n : Fin 1048576, Cert.MeanCos.cosR (Cert.MeanCos.row x0 n) (Cert.MeanCos.row x1 n) :=
    Finset.sum_congr rfl fun n _ => row_value x0 x1 n
  rw [hs]
  rfl

end Cert.ReferenceIdeal.RefRead

end
-- ==== Proof.Finite.lean ====
/-
  The precondition, decoded: it compares the absolute value of every entry of each of the two arrays with plus
  infinity, takes the conjunction over all entries of each array, and then the conjunction of the two. When the
  result is true, every entry of both arrays has an absolute value strictly below plus infinity, and an extended
  real with that property is neither infinity: it is a real number.
-/
import proofs.«104898_j74002286510639_2_alg».proof.Proof.Gen.Pre_finite_inputs
import proofs.«104898_j74002286510639_2_alg».proof.Proof.LibExtReal
import Idealize.ShloMosaic.Lib.ReduceAll
import Idealize.ShloMosaic.Lib.ValueIdx

namespace Cert.Pre_finite_inputs.Finite
open Idealize.ShloMosaic Cert.Pre_finite_inputs

/-- The index type of an array with no axes has one element. -/
instance : Subsingleton S_.Idx := ⟨fun a b => funext fun d => d.elim0⟩

/-- An extended real whose absolute value (the larger of it and its negative) is strictly below plus infinity is a
    real number. -/
theorem isReal_of_abs_lt (a : EReal)
    (h : Ideal.cmp .olt (max a (-a)) (Ideal.ofBits .f32 0x7F800000#32) = 1#1) : Cert.LibExtReal.IsReal a := by
  have htop : Ideal.ofBits .f32 0x7F800000#32 = (⊤ : EReal) := by simp [Ideal.ofBits, Ideal.ieee]
  rw [htop] at h
  induction a using EReal.rec with
  | bot => simp [Ideal.cmp] at h
  | coe r => exact ⟨r, rfl⟩
  | top => simp [Ideal.cmp] at h

/-- under the precondition every entry of both arrays is a real number -/
theorem real_of_pre (x0 x1 : FVec Ideal S1048576x128 .f32)
    (h : Cert.Pre_finite_inputs.fn (F := Ideal) x0 x1 = fun _ => 1#1) :
    (∀ i, Cert.LibExtReal.IsReal (x0 i)) ∧ (∀ i, Cert.LibExtReal.IsReal (x1 i)) := by
  have h0 := congrFun h ValueIdx.ix0
  dsimp only [fn] at h0
  obtain ⟨ha, hb⟩ := IntOp.andi_eq_one.1 h0
  refine ⟨fun i => ?_, fun i => ?_⟩
  · exact isReal_of_abs_lt (x0 i) (Host.reduce_andi_all _ _ _ _ _ ha i)
  · exact isReal_of_abs_lt (x1 i) (Host.reduce_andi_all _ _ _ _ _ hb i)

end Cert.Pre_finite_inputs.Finite
-- ==== Proof.lean ====
/-
  Two programs for the mean cosine of the 1,048,576 pairs of rows of two arrays of 128 columns, equal on the extended
  reals when every entry is finite.

  The reference divides every row by its Euclidean norm, clamped from below by a small positive number, multiplies the
  two normalised arrays entry by entry, sums each row, sums the rows, and divides by the number of rows. The blocked
  program never normalises a row: for each pair of rows it forms the sum of products and the two sums of squares,
  divides the first by the product of the two clamped norms, and adds these quotients up — 2048 rows to a piece, eight
  pieces to a block, 32 blocks to each of two halves whose sums land in two entries of a small array that is zero
  elsewhere — and finally divides the array's total by the number of rows.

  One law joins them: for a row a, a row b and positive real numbers p, q,
      Σ_d (a_d / p)·(b_d / q) = (Σ_d a_d·b_d) / (p·q),
  which needs every a_d, b_d real (it fails at the infinities); that is the only use of the precondition. The clamped
  norms are positive reals because the clamp is. Everything else is re-association of finite sums, which is free on the
  extended reals: the rows in the order blocks, pieces, rows; the blocks of a half as a running sum restarted at the
  half's first block; the small array's total as the sum of its two nonzero entries.

  No operation was rewritten when the blocked program was read on the extended reals, so that it is the sanctioned
  idealization of the program as printed holds trivially. The three frames are the generated ones.
-/
import proofs.«104898_j74002286510639_2_alg».proof.Defs
import proofs.«104898_j74002286510639_2_alg».proof.Proof.Gen.Kernel
import proofs.«104898_j74002286510639_2_alg».proof.Proof.Gen.Kernel.Skeleton
import proofs.«104898_j74002286510639_2_alg».proof.Proof.Gen.Kernel.Launch
import proofs.«104898_j74002286510639_2_alg».proof.Proof.Gen.Kernel.Points
import proofs.«104898_j74002286510639_2_alg».proof.Proof.Gen.Kernel.Frame
import proofs.«104898_j74002286510639_2_alg».proof.Proof.Gen.KernelIdeal
import proofs.«104898_j74002286510639_2_alg».proof.Proof.Gen.KernelIdeal.Skeleton
import proofs.«104898_j74002286510639_2_alg».proof.Proof.Gen.KernelIdeal.Launch
import proofs.«104898_j74002286510639_2_alg».proof.Proof.Gen.KernelIdeal.Points
import proofs.«104898_j74002286510639_2_alg».proof.Proof.Gen.KernelIdeal.Frame
import proofs.«104898_j74002286510639_2_alg».proof.Proof.Gen.ReferenceIdeal
import proofs.«104898_j74002286510639_2_alg».proof.Proof.Gen.ReferenceIdeal.Run
import proofs.«104898_j74002286510639_2_alg».proof.Proof.Gen.ReferenceIdeal.Read
import proofs.«104898_j74002286510639_2_alg».proof.Proof.Gen.Pre_finite_inputs
import proofs.«104898_j74002286510639_2_alg».proof.Proof.Final
import proofs.«104898_j74002286510639_2_alg».proof.Proof.RefRead
import proofs.«104898_j74002286510639_2_alg».proof.Proof.Finite
import proofs.«104898_j74002286510639_2_alg».proof.Proof.SpecLaws
import Idealize.ShloMosaic.Adequacy
import Idealize.ShloMosaic.Init

noncomputable section

open scoped BigOperators

namespace Cert.Proof

open Idealize.ShloMosaic Idealize.ShloMosaic.TcCoe Idealize.SL.Sem Cert.MeanCos Cert.LibExtReal

/-- For arrays of real numbers the reference's last stage is the mean of the rows' cosines: row by row, dividing by
    the clamped norms before or after the products are summed is the same. -/
theorem ref_eq (x0 x1 : Arr) (h0 : ∀ i, IsReal (x0 i)) (h1 : ∀ i, IsReal (x1 i)) :
    Cert.ReferenceIdeal.Read.val_main_v13 (F := Ideal) x0 x1 = fun _ => meanCos x0 x1 := by
  funext i
  rw [Cert.ReferenceIdeal.RefRead.ref_value x0 x1 i]
  have hs : (∑ n : Fin 1048576, cosR (row x0 n) (row x1 n)) = ∑ n : Fin 1048576, cosK (row x0 n) (row x1 n) :=
    Finset.sum_congr rfl fun n _ => cosR_eq_cosK (row x0 n) (row x1 n) (fun d => h0 _) (fun d => h1 _)
  rw [hs]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean of the cosines of the rows of the arguments. -/
theorem algebraic : Cert.algebraic_KernelIdeal_ReferenceIdeal := by
  intro m ρ m' ρ' hpre hagree
  refine ⟨fun c => fun _ => meanCos (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hr0, hr1⟩ := Cert.Pre_finite_inputs.Finite.real_of_pre _ _ (hpre c)
  exact (Cert.ReferenceIdeal.Read.val_main_v13_eq _ _).trans (ref_eq _ _ hr0 hr1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
